-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x4096 : Shape := ⟨2, ![2048, 4096]⟩
abbrev S512x4096 : Shape := ⟨2, ![512, 4096]⟩
abbrev S1x512 : Shape := ⟨2, ![1, 512]⟩
abbrev S2048x512 : Shape := ⟨2, ![2048, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S2048x4096, .bf16⟩
  | .local _ .vmem, ⟨1, _⟩ => ⟨S2048x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S4096_S1x4096 : S4096.ShapeCasts S1x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x4096_S512x4096_S2048x512_1_1_0_0_n_n_wf : DotDims.WF S2048x4096 S512x4096 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S8192x4096.size a
  hwx0_0 : ∀ i : grid0.Coords, EltTy.bits .bf16 = 32 ∨ (Rect.block (s := S8192x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x4096.size a
  hwx0_3 : ∀ i : grid0.Coords, EltTy.bits .f32 = 32 ∨ (Rect.block (s := S8192x4096) S2048x512.size (cc0_transform_3 i) (hinb0_3 i)).WholeWords (EltTy.packing .f32)

variable [Facts₀]

def dot_S2048x4096_S512x4096_S2048x512_1_1_0_0_n_n : DotDims S2048x4096 S512x4096 S2048x512 where
  lhsContracting := [1]
  rhsContracting := [1]
  lhsNonContracting := [0]
  rhsNonContracting := [0]
  lhsBatch := []
  rhsBatch := []
  wf := dot_S2048x4096_S512x4096_S2048x512_1_1_0_0_n_n_wf

abbrev win0_0 : Pipeline.Window sig grid0 :=
  Pipeline.Window.ofSpec (Memref.whole main_v0) S2048x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Affine.lean ====
/-
  The affine map of a linear layer, entry by entry over the extended reals.

  For `x : [8192, 4096]` (one row per token), `w : [4096, 4096]` (one ROW per output feature) and `b : [4096]`,
  the layer's output is `y = x · wᵀ + b`:

      y (p, q) = Σ_k x (p, k) · w (q, k) + b q,      k over the 4096 input features.

  Both programs of this certificate compute this array; the sum is written once, here, over the literal
  extents, with the factor from `x` on the left.
-/
import Idealize.ShloMosaic.PureOps.Ideal
import Idealize.ShloMosaic.Lib.ValueIdx

noncomputable section

open scoped BigOperators

namespace Cert.Linear

open Idealize.ShloMosaic Idealize.ShloMosaic.ValueIdx

/-- Entry `(p, q)` of `x · wᵀ + b`: row `p` of `x` against row `q` of `w`, plus the bias of feature `q`. -/
def entry (x : FVec Ideal ⟨2, ![8192, 4096]⟩ .f32) (w : FVec Ideal ⟨2, ![4096, 4096]⟩ .f32)
    (b : FVec Ideal ⟨1, ![4096]⟩ .f32) (p : Fin 8192) (q : Fin 4096) : EReal :=
  (∑ k : Fin 4096, x (ix2 p k) * w (ix2 q k)) + b (ix1 q)

/-- The whole array `x · wᵀ + b`, read at an index through its two coordinates. -/
def affine (x : FVec Ideal ⟨2, ![8192, 4096]⟩ .f32) (w : FVec Ideal ⟨2, ![4096, 4096]⟩ .f32)
    (b : FVec Ideal ⟨1, ![4096]⟩ .f32) : FVec Ideal ⟨2, ![8192, 4096]⟩ .f32 :=
  fun i => entry x w b (i 0) (i 1)

theorem affine_apply (x : FVec Ideal ⟨2, ![8192, 4096]⟩ .f32) (w : FVec Ideal ⟨2, ![4096, 4096]⟩ .f32)
    (b : FVec Ideal ⟨1, ![4096]⟩ .f32) (i : (⟨2, ![8192, 4096]⟩ : Shape).Idx) :
    affine x w b i = (∑ k : Fin 4096, x (ix2 (i 0) k) * w (ix2 (i 1) k)) + b (ix1 (i 1)) := rfl

end Cert.Linear

end
-- ==== Proof.LibLinTile.lean ====
/-
  A tile of a linear layer and its column statistics, read entry by entry over the extended reals.

  * A matrix product whose two operands are both contracted along their LAST axis (dimension numbers
    `[1] × [1]`, no batch axes, free axes `[0]` and `[0]`): an `M × K` by `N × K` product accumulated into the
    zero matrix is, at entry `(a, b)`, `Σ_k l (a, k) · r (b, k)` — the left operand times the transpose of the
    right one. The dimension-number record is a variable with its six lists given by hypotheses.
  * A column `[m, 1]` broadcast along the second axis reads `(r, 0)` at `(r, c)`.
  * The sum of an `[m, n]` matrix along its first axis is, at column `c`, `Σ_p v (p, c)`; recast as a row
    `[1, n]` and added to a row it gives the running column sums.
  * The tile itself: with `agg, h : [m, K]`, a column `d : [m, 1]`, weights `wl, wr : [n, K]` and a bias row
    `b : [1, n]`, the value `((agg ∘ d) · wlᵀ + h · wrᵀ) + b` (operands passed through a change of format, which
    is the identity on the extended reals) is, at `(p, q)`,
    `(Σ_k (agg (p, k) · d (p, 0)) · wl (q, k) + Σ_k h (p, k) · wr (q, k)) + b (0, q)`.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibLinTile

open Idealize.ShloMosaic Idealize.ShloMosaic.ValueIdx

/-! ## The product with both operands contracted on their last axis -/

section Matmul

variable {M K N : Nat} (D : DotDims ⟨2, ![M, K]⟩ ⟨2, ![N, K]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `0`, the right operand's row is the result's column. -/
theorem rhs_row (hln : D.lhsNonContracting = [0]) (hrn : D.rhsNonContracting = [0]) (hlb : D.lhsBatch = [])
    (hrb : D.rhsBatch = []) (j : (⟨2, ![M, N]⟩ : Shape).Idx) (q : D.contr.Idx) : (D.rhsIdx j q 0).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- An `M × K` by `N × K` product, both contracted on the last axis, into the zero matrix, at entry `(a, b)`:
    `Σ_k l (a, k) · r (b, k)`. -/
theorem matmul_zero_apply {φ₁ φ₂ : FTy}
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![M, K]⟩ φ₁) (r : FVec Ideal ⟨2, ![N, K]⟩ φ₂)
    (a : Fin M) (b : Fin N) :
    FloatOps.matmul D prec l r (constant (F := Ideal) ⟨2, ![M, N]⟩ .f32 0x00000000#32) (ix2 a b)
      = ∑ k : Fin K, l (ix2 a k) * r (ix2 b k) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 b k :=
    funext fun c => Fin.ext (by
      match c with
      | ⟨0, _⟩ => exact rhs_row D hln hrn hlb hrb _ _
      | ⟨1, _⟩ => exact (D.rhsIdx_val_of_single hrc _ _).trans hk)
  rw [el, er]

end Matmul

/-! ## A column broadcast along the rows' entries -/

/-- A column `[m, 1]` broadcast to `[m, n]`, read at `(r, c)`, is the column at `(r, 0)`. -/
theorem bcast_col {α : Type} {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r (0 : Fin 1)) :=
  broadcastTo_apply v h (ix2 r c) (ix2 r (0 : Fin 1)) (fun a => match a with
    | ⟨0, _⟩ => by show r.val = (if m = 1 then 0 else r.val); rw [if_neg hm]
    | ⟨1, _⟩ => by show 0 = (if (1 : ℕ) = 1 then 0 else c.val); rw [if_pos rfl])

/-! ## Sums down the columns -/

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (lift_col h c k)

/-- A row plus the column sums of a matrix kept as a row: at `(0, c)` the row's entry plus `Σ_p v (p, c)`. -/
theorem addColSum_apply {m n : ℕ} (row : FVec Ideal (⟨2, ![1, n]⟩ : Shape) .f32) (v : FVec Ideal (⟨2, ![m, n]⟩ : Shape) .f32)
    (acc : BitVec 32) (h : (⟨2, ![m, n]⟩ : Shape).Reduces [0] (⟨1, ![n]⟩ : Shape)) (hφ : FKind.Formats .f32)
    (hacc : acc = FKind.add.neutral .f32 hφ) (hc : (⟨1, ![n]⟩ : Shape).ShapeCasts ⟨2, ![1, n]⟩) (c : Fin n) :
    addf row (shapeCast ⟨2, ![1, n]⟩ (multiReduction .add [0] (⟨1, ![n]⟩ : Shape) v acc h hφ hacc) hc) (ix2 (0 : Fin 1) c)
      = row (ix2 (0 : Fin 1) c) + ∑ p : Fin m, v (ix2 p c) :=
  (addf_apply _ _ _).trans (congrArg (row (ix2 (0 : Fin 1) c) + ·)
    ((shapeCast_a_1a_apply _ hc 0 c).trans (colSum_apply v acc h hφ hacc c)))

/-! ## The tile -/

/-- The tile's value at `(p, q)`. -/
theorem tile_apply {m K n : ℕ} (D : DotDims ⟨2, ![m, K]⟩ ⟨2, ![n, K]⟩ ⟨2, ![m, n]⟩)
    (hlc : D.lhsContracting = [1]) (hrc : D.rhsContracting = [1]) (hln : D.lhsNonContracting = [0])
    (hrn : D.rhsNonContracting = [0]) (hlb : D.lhsBatch = []) (hrb : D.rhsBatch = [])
    (hm : m ≠ 1)
    (agg h : FVec Ideal ⟨2, ![m, K]⟩ .f32) (d : FVec Ideal ⟨2, ![m, 1]⟩ .f32) (wl wr : FVec Ideal ⟨2, ![n, K]⟩ .f32)
    (b : FVec Ideal ⟨2, ![1, n]⟩ .f32)
    (hbc : (⟨2, ![m, 1]⟩ : Shape).Broadcasts ⟨2, ![m, K]⟩) (hbr : (⟨2, ![1, n]⟩ : Shape).Broadcasts ⟨2, ![m, n]⟩)
    (hlt : FTy.bits .bf16 < FTy.bits .f32) (p : Fin m) (q : Fin n) :
    addf (addf
        (matmul D none (truncf .bf16 (mulf agg (broadcastTo ⟨2, ![m, K]⟩ d hbc)) hlt) (truncf .bf16 wl hlt)
          (constant (F := Ideal) ⟨2, ![m, n]⟩ .f32 0x00000000#32))
        (matmul D none (truncf .bf16 h hlt) (truncf .bf16 wr hlt) (constant (F := Ideal) ⟨2, ![m, n]⟩ .f32 0x00000000#32)))
      (broadcastTo ⟨2, ![m, n]⟩ b hbr) (ix2 p q)
      = ((∑ k : Fin K, (agg (ix2 p k) * d (ix2 p (0 : Fin 1))) * wl (ix2 q k)) + ∑ k : Fin K, h (ix2 p k) * wr (ix2 q k))
          + b (ix2 (0 : Fin 1) q) := by
  refine (addf_apply _ _ _).trans ?_
  refine congrArg₂ (· + ·) ((addf_apply _ _ _).trans (congrArg₂ (· + ·) ?_ ?_)) (broadcastTo_1b_ab_apply b hbr p q)
  · refine (matmul_zero_apply D hlc hrc hln hrn hlb hrb none _ _ p q).trans ?_
    refine Finset.sum_congr rfl fun k _ => ?_
    show (agg (ix2 p k) * broadcastTo ⟨2, ![m, K]⟩ d hbc (ix2 p k)) * wl (ix2 q k) = _
    rw [bcast_col hm d hbc p k]
  · exact matmul_zero_apply D hlc hrc hln hrn hlb hrb none _ _ p q

end Cert.LibLinTile

end
-- ==== Proof.Tile.lean ====
/-
  One tile of the layer: what the kernel's body computes from the blocks it is handed.

  The body is given `2048` rows of `x` (all `4096` input features of each), `512` rows of `w` (likewise whole rows) and
  the matching `512` biases as a `[1, 512]` row. It multiplies the first block by the TRANSPOSE of the second — both
  operands are contracted along their last axis —, starting from the zero matrix, and adds the bias row to every row
  of the product. So at `(p, q)` of the `[2048, 512]` tile it holds

      Σ_k l (p, k) · r (q, k) + bias (0, q).

  The contraction runs over the whole feature axis inside one tile: no partial sums cross tiles. The identity casts
  the body applies to its loaded blocks do nothing.
-/
import proofs.«175067_g13597866459289_cont_week2b_889_3_alg».proof.Proof.Gen.KernelIdeal.Skeleton
import proofs.«175067_g13597866459289_cont_week2b_889_3_alg».proof.Proof.LibLinTile
import Idealize.ShloMosaic.Lib.ValueIdx
import Idealize.ShloMosaic.Lib.ValueLayout
import Idealize.ShloMosaic.Lib.Pipeline.Value

noncomputable section

open scoped BigOperators

namespace Cert.Linear

open Idealize.ShloMosaic Idealize.ShloMosaic.ValueIdx

/-- A product of an `M × K` block by the transpose of an `N × K` block into the zero matrix, plus a `[1, N]` row added to
    every row, all three operands first passed through a cast to their own shape: at `(p, q)` it is
    `Σ_k l (p, k) · r (q, k) + b (0, q)`. -/
theorem matmulT_add_row_apply {M K N : Nat} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    {φ₁ φ₂ : FTy} (l : FVec Ideal ⟨2, ![M, K]⟩ φ₁) (r : FVec Ideal ⟨2, ![N, K]⟩ φ₂) (b : FVec Ideal ⟨2, ![1, N]⟩ .f32)
    (hl : (⟨2, ![M, K]⟩ : Shape).ShapeCasts ⟨2, ![M, K]⟩) (hr : (⟨2, ![N, K]⟩ : Shape).ShapeCasts ⟨2, ![N, K]⟩)
    (hb : (⟨2, ![1, N]⟩ : Shape).ShapeCasts ⟨2, ![1, N]⟩) (hbr : (⟨2, ![1, N]⟩ : Shape).Broadcasts ⟨2, ![M, N]⟩)
    (p : Fin M) (q : Fin N) :
    addf (matmul D none (shapeCast ⟨2, ![M, K]⟩ l hl) (shapeCast ⟨2, ![N, K]⟩ r hr)
        (constant (F := Ideal) ⟨2, ![M, N]⟩ .f32 0x00000000#32))
      (broadcastTo ⟨2, ![M, N]⟩ (shapeCast ⟨2, ![1, N]⟩ b hb) hbr) (ix2 p q)
      = (∑ k : Fin K, l (ix2 p k) * r (ix2 q k)) + b (ix2 (0 : Fin 1) q) := by
  rw [shapeCast_self l hl, shapeCast_self r hr, shapeCast_self b hb]
  refine (addf_apply _ _ _).trans ?_
  exact congrArg₂ (· + ·) (Cert.LibLinTile.matmul_zero_apply D hlc hrc hln hrn hlb hrb none l r p q)
    (broadcastTo_1b_ab_apply b hbr p q)

open Cert.KernelIdeal Cert.KernelIdeal.Gen in
/-- The body's one stored value, at `(p, q)` of its tile, from the three blocks it loads. -/
theorem tile_apply (v0 : Vec Ideal S2048x4096 .bf16) (v2 : Vec Ideal S512x4096 .bf16) (v5 : Vec Ideal S1x512 .f32)
    (p : Fin 2048) (q : Fin 512) :
    k0_pay1 (F := Ideal) v0 v2 v5 (ix2 p q)
      = (∑ k : Fin 4096, v0 (ix2 p k) * v2 (ix2 q k)) + v5 (ix2 (0 : Fin 1) q) := by
  unfold k0_pay1
  exact matmulT_add_row_apply dot_S2048x4096_S512x4096_S2048x512_1_1_0_0_n_n rfl rfl rfl rfl rfl rfl v0 v2 v5
    shapeCasts_S2048x4096_S2048x4096 shapeCasts_S512x4096_S512x4096 shapeCasts_S1x512_S1x512 broadcasts_S1x512_S2048x512 p q

end Cert.Linear

end
-- ==== Proof.Entry.lean ====
/-
  The arrays as the kernel's region finds them.

  Before the region the program rounds `x` and `w` to the short float format and recasts the bias `[4096]` as a row
  `[1, 4096]`. On the extended reals a change of float format is the identity, so the region finds `x` and `w` entry
  for entry as launched, and the row's entry `(0, q)` is the bias's entry `q` (a row-major recast of a vector into a
  one-row matrix keeps the order).
-/
import proofs.«175067_g13597866459289_cont_week2b_889_3_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.Linear

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The region's first operand is `x`, entry for entry. -/
theorem entry_x (c : Dev nD) (i : S8192x4096.Idx) :
    V m c main_v0 i = m ((c : Thread nD τ).loc main_arg0) i := by
  have e : (V m c main_v0 : S8192x4096.Idx → EReal)
      = truncf (F := Ideal) (s := S8192x4096) (φ := .f32) .bf16 (m ((c : Thread nD τ).loc main_arg0)) bitsLt_bf16_f32 := by
    dsimp only [Gen.V, Gen.hostOps0]; after_results
  exact congrFun e i

/-- The region's second operand is `w`, entry for entry. -/
theorem entry_w (c : Dev nD) (i : S4096x4096.Idx) :
    V m c main_v1 i = m ((c : Thread nD τ).loc main_arg1) i := by
  have e : (V m c main_v1 : S4096x4096.Idx → EReal)
      = truncf (F := Ideal) (s := S4096x4096) (φ := .f32) .bf16 (m ((c : Thread nD τ).loc main_arg1)) bitsLt_bf16_f32 := by
    dsimp only [Gen.V, Gen.hostOps0]; after_results
  exact congrFun e i

/-- The region's third operand is the bias as a row: its entry `(0, q)` is the bias's entry `q`. -/
theorem entry_b (c : Dev nD) (y : S1x4096.Idx) :
    V m c main_v2 y = m ((c : Thread nD τ).loc main_arg2) (ix1 (y 1)) := by
  have e : (V m c main_v2 : S1x4096.Idx → EReal)
      = shapeCast (s := S4096) (α := EReal) S1x4096 (m ((c : Thread nD τ).loc main_arg2)) shapeCasts_S4096_S1x4096 := by
    dsimp only [Gen.V, Gen.hostOps0]; after_results; rfl
  exact (congrFun e y).trans ((congrArg _ (eq_ix2 y)).trans (shapeCast_a_1a_apply _ _ (y 0) (y 1)))

end Cert.Linear

end
-- ==== Proof.KernelValue.lean ====
/-
  The kernel's output array is the affine map.

  The grid has `4 × 8` points. Point `(a, b)` is handed rows `2048·a …` of `x` (whole rows), rows `512·b …` of `w`
  (whole rows) and columns `512·b …` of the bias row, and writes the `[2048, 512]` tile whose corner is
  `(2048·a, 512·b)`. By the tile's value (`tile_apply`) the entry it writes at array index `(2048·a + p, 512·b + q)` is

      Σ_k x (2048·a + p, k) · w (512·b + q, k) + bias (512·b + q),

  which is the affine map at that index: each tile is the restriction of ONE whole-array function. Since `4 · 2048 = 8192`
  and `8 · 512 = 4096`, the tiles cover the array — index `(r, s)` lies in the tile of point `(r / 2048, s / 512)` — so the
  array after the run is the affine map everywhere.
-/
import proofs.«175067_g13597866459289_cont_week2b_889_3_alg».proof.Proof.Gen.KernelIdeal.Value
import proofs.«175067_g13597866459289_cont_week2b_889_3_alg».proof.Proof.Affine
import proofs.«175067_g13597866459289_cont_week2b_889_3_alg».proof.Proof.Tile
import proofs.«175067_g13597866459289_cont_week2b_889_3_alg».proof.Proof.Entry

set_option maxRecDepth 16384

noncomputable section

open scoped BigOperators

namespace Cert.Linear

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store go through the whole staging buffers: offsets zero on both axes. -/
theorem zero_offsets : (![0, 0] : Fin 2 → Nat) = fun _ => 0 := funext fun a => by fin_cases a <;> rfl

/-! ## One tile is a restriction of the affine map -/

/-- If the three blocks are the pieces of `X`, `W`, `B` that start at row `2048·a`, at row `512·b` and at entry `512·b`, then
    the body's value at `j` of its tile is the affine map of `X`, `W`, `B` at the array index `(2048·a + j₀, 512·b + j₁)`. -/
theorem tile_is_affine (x0 : Vec Ideal S2048x4096 .bf16) (x1 : Vec Ideal S512x4096 .bf16) (x2 : Vec Ideal S1x512 .f32)
    (X : FVec Ideal S8192x4096 .f32) (W : FVec Ideal S4096x4096 .f32) (B : FVec Ideal S4096 .f32) (a b : Nat)
    (h0 : ∀ (y : S2048x4096.Idx) (i : S8192x4096.Idx), (i 0).val = a * 2048 + (y 0).val → (i 1).val = (y 1).val → x0 y = X i)
    (h1 : ∀ (y : S512x4096.Idx) (i : S4096x4096.Idx), (i 0).val = b * 512 + (y 0).val → (i 1).val = (y 1).val → x1 y = W i)
    (h2 : ∀ (y : S1x512.Idx) (i : S4096.Idx), (i 0).val = b * 512 + (y 1).val → x2 y = B i)
    (j : S2048x512.Idx) (i : S8192x4096.Idx)
    (hi0 : (i 0).val = a * 2048 + (j 0).val) (hi1 : (i 1).val = b * 512 + (j 1).val) :
    k0_pay1 (F := Ideal) x0 x1 x2 j = affine X W B i := by
  obtain ⟨p, q, rfl⟩ : ∃ (p : Fin 2048) (q : Fin 512), j = ix2 p q := ⟨j 0, j 1, eq_ix2 j⟩
  rw [tile_apply, affine_apply]
  exact congrArg₂ (· + ·)
    (Finset.sum_congr rfl fun k _ => congrArg₂ (· * ·) (h0 (ix2 p k) (ix2 (i 0) k) hi0 rfl) (h1 (ix2 q k) (ix2 (i 1) k) hi1 rfl))
    (h2 (ix2 (0 : Fin 1) q) (ix1 (i 1)) hi1)

/-! ## The printed index maps over the grid -/

/-- At every point: `x`'s block follows the tile's row block and starts at feature `0`; `w`'s block follows the tile's COLUMN
    block and starts at feature `0`; the bias block sits in row `0` and follows the tile's column block; and the tile's block
    indices stay below `4` and `8`. Decided over the 32 points. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 7 :=
  (by decide +kernel : ∀ t : Fin grid0.N, _)

/-- Every tile of the `4 × 8` arrangement is some point's. -/
theorem idx_onto : ∀ (q0 : Fin 4) (q1 : Fin 8), ∃ t : Fin cfg0.N, win0_3.index t = ![q0.val, q1.val] :=
  (by decide +kernel : ∀ (q0 : Fin 4) (q1 : Fin 8), ∃ t : Fin grid0.N, win0_3.index t = ![q0.val, q1.val])

/-! ## What a point writes back -/

/-- Point `t` writes back tile `t` of the affine map of the arguments. -/
theorem flushed_eq (c : Dev nD) (t : Fin cfg0.N) :
    (dats m 0 c).flushed 3 t = ((cfg0.win 3).blk t).view.read (Elt Ideal)
      (affine (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets]
  simp only [View.ld_unit_zero (S := S2048x4096) zero_offsets, View.ld_unit_zero (S := S512x4096) zero_offsets,
    View.ld_unit_zero (S := S1x512) zero_offsets]
  obtain ⟨e00, e01, e10, e11, e20, e21, -, -⟩ := idx_facts t
  funext j
  show k0_pay1 (F := Ideal) (iblk m c 0 t) (iblk m c 1 t) (iblk m c 2 t) j
    = affine (m ((c : Thread nD τ).loc main_arg0)) (m ((c : Thread nD τ).loc main_arg1)) (m ((c : Thread nD τ).loc main_arg2))
        (((cfg0.win 3).blk t).view.emb j)
  refine tile_is_affine (iblk m c 0 t) (iblk m c 1 t) (iblk m c 2 t) _ _ _
    (win0_3.index t (0 : Fin 2)) (win0_3.index t (1 : Fin 2)) ?_ ?_ ?_ j (((cfg0.win 3).blk t).view.emb j) ?_ ?_
  · -- the block of `x`: rows from `2048 · a`, every feature
    intro y i h0 h1
    show V m c main_v0 (((cfg0.win 0).blk t).view.emb y) = _
    refine (entry_x m c _).trans (congrArg _ ?_)
    funext d; apply Fin.ext
    match d with
    | ⟨0, _⟩ => show win0_0.index t (0 : Fin 2) * 2048 + 1 * (y 0).val = (i 0).val; omega
    | ⟨1, _⟩ => show win0_0.index t (1 : Fin 2) * 4096 + 1 * (y 1).val = (i 1).val; omega
  · -- the block of `w`: rows from `512 · b`, every feature
    intro y i h0 h1
    show V m c main_v1 (((cfg0.win 1).blk t).view.emb y) = _
    refine (entry_w m c _).trans (congrArg _ ?_)
    funext d; apply Fin.ext
    match d with
    | ⟨0, _⟩ => show win0_1.index t (0 : Fin 2) * 512 + 1 * (y 0).val = (i 0).val; omega
    | ⟨1, _⟩ => show win0_1.index t (1 : Fin 2) * 4096 + 1 * (y 1).val = (i 1).val; omega
  · -- the block of the bias row: entries from `512 · b`
    intro y i h0
    show V m c main_v2 (((cfg0.win 2).blk t).view.emb y) = _
    refine (entry_b m c _).trans (congrArg _ ?_)
    funext d; apply Fin.ext
    match d with
    | ⟨0, _⟩ => show win0_2.index t (1 : Fin 2) * 512 + 1 * (y 1).val = (i 0).val; omega
  · show win0_3.index t (0 : Fin 2) * 2048 + 1 * (j 0).val = _; omega
  · show win0_3.index t (1 : Fin 2) * 512 + 1 * (j 1).val = _; omega

/-! ## The tiles cover the array -/

/-- An index is in point `t`'s tile iff each coordinate is in the tile's range on its axis. -/
theorem mem_blk (t : Fin cfg0.N) (i : S8192x4096.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v3).slice (win0_3.rect t)).set ↔ _
  rw [View.set_slice_whole, Rect.mem_set_unit]
  exact Iff.rfl

/-- Every index of the array is in the tile of the point `(r / 2048, s / 512)`, and every point writes back. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 2048, by omega⟩ ⟨(i 1).val / 512, by omega⟩
  have q0 : win0_3.index t (0 : Fin 2) = (i 0).val / 2048 := congrFun ht 0
  have q1 : win0_3.index t (1 : Fin 2) = (i 1).val / 512 := congrFun ht 1
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-! ## The array after the run, and the run -/

/-- After the last point the output array is the affine map of the arguments. -/
theorem final (c : Dev nD) : (dats m 0 c).arrAt 3 cfg0.N
    = affine (m ((c : Thread nD τ).loc main_arg0)) (m ((c : Thread nD τ).loc main_arg1)) (m ((c : Thread nD τ).loc main_arg2)) :=
  (dats m 0 c).arrAt_eq_of_cover 3 _ (fun t _ => flushed_eq m c t) cover

/-- Every weakly fair execution of the idealized kernel ends with its result at `x · wᵀ + b` of the arguments as launched,
    and the arguments unchanged. -/
theorem run : θ_run defs (onTc (τ := τ) (main (F := Ideal))) ⟨m, fun _ => 0, ρ⟩ fun r => ∀ c : Dev nD,
      r.2.mem ((c : Thread nD τ).loc main_v3)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Linear

end
-- ==== Proof.RefAffine.lean ====
/-
  The reference computes the affine map.

  The reference transposes `w`, contracts `x`'s feature axis against the transposed array's FIRST axis, and adds the bias
  spread over all rows (`[4096] → [1, 4096] → [8192, 4096]`). Read at `(p, q)`: the transposed array at `(k, q)` is
  `w (q, k)`, so the product's entry is `Σ_k x (p, k) · w (q, k)`, and the spread bias at `(p, q)` is `b q`.
  That is `Cert.Linear.affine`, summand by summand, with nothing rearranged.
-/
import proofs.«175067_g13597866459289_cont_week2b_889_3_alg».proof.Proof.Gen.ReferenceIdeal.Read
import proofs.«175067_g13597866459289_cont_week2b_889_3_alg».proof.Proof.Affine

noncomputable section

open scoped BigOperators

namespace Cert.Linear

open Idealize.ShloMosaic Idealize.ShloMosaic.ValueIdx
open Cert.ReferenceIdeal Cert.ReferenceIdeal.Read

/-- The reference's last stage is `x · wᵀ + b`. -/
theorem reference_eq (x0 : FVec Ideal S8192x4096 .f32) (x1 : FVec Ideal S4096x4096 .f32) (x2 : FVec Ideal S4096 .f32) :
    val_main_v4 (F := Ideal) x0 x1 x2 = affine x0 x1 x2 := by
  funext i
  -- the left factor's index, the transposed right factor's index, and the bias's index, by coordinates
  have el : ∀ k : Fin 4096, lidx_main_v1 i k = ix2 (i 0) k := fun k =>
    funext fun a => Fin.ext (by match a with | ⟨0, _⟩ => rfl | ⟨1, _⟩ => rfl)
  have er : ∀ k : Fin 4096, idx_main_v0 (ridx_main_v1 i k) = ix2 (i 1) k := fun k =>
    funext fun a => Fin.ext (by match a with | ⟨0, _⟩ => rfl | ⟨1, _⟩ => rfl)
  have eb : idx_main_v2 (idx_main_v3 i) = ix1 (i 1) :=
    funext fun a => Fin.ext (by match a with | ⟨0, _⟩ => rfl)
  rw [val_main_v4_apply, val_main_v1_apply, val_main_v3_apply, val_main_v2_apply, affine_apply]
  simp only [val_main_v0_apply, el, er, eb]
  rfl

end Cert.Linear

end
-- ==== Proof.lean ====
/-
  A linear layer `y = x · wᵀ + b` (`x : [8192, 4096]`, `w : [4096, 4096]` with one row per output feature, `b : [4096]`)
  computed by a tiled kernel, against the plain formula.

  The kernel rounds `x` and `w` to a short float format, recasts `b` as a row, and on a `4 × 8` grid computes one
  `[2048, 512]` tile per point: `2048` whole rows of `x` times the transpose of `512` whole rows of `w`, plus the matching
  `512` biases added to every row. The reference transposes `w`, takes one whole matrix product and adds the bias spread
  over the rows.

  On the extended reals a change of float format is the identity, and both programs hold at `(p, q)`

      Σ_k x (p, k) · w (q, k) + b q,

  the same sum over the same `4096` features with the same factor order: nothing is rearranged, so no law of the
  extended reals beyond `0 + s = s` for the product's zero starting value is used, and the inputs' finiteness is
  never opened. The contraction is not split across tiles; the tiles only partition the output, and
  `4 · 2048 = 8192`, `8 · 512 = 4096` make them cover it.

  * `Proof/Affine.lean`: the formula, as one function of the three arrays.
  * `Proof/Tile.lean` (over `Proof/LibLinTile.lean`): the kernel body's value at an entry of its tile.
  * `Proof/Entry.lean`: the arrays as the kernel's region finds them are the arguments.
  * `Proof/KernelValue.lean`: each tile is a restriction of the formula, the tiles cover, so the output array is the formula.
  * `Proof/RefAffine.lean`: the reference's result is the formula.

  The idealized kernel is the printed kernel's own text read over the extended reals (no rewrite was applied), so the
  idealization claim has nothing to state.
-/
import proofs.«175067_g13597866459289_cont_week2b_889_3_alg».proof.Defs
import proofs.«175067_g13597866459289_cont_week2b_889_3_alg».proof.Proof.Gen.Kernel
import proofs.«175067_g13597866459289_cont_week2b_889_3_alg».proof.Proof.Gen.Kernel.Skeleton
import proofs.«175067_g13597866459289_cont_week2b_889_3_alg».proof.Proof.Gen.Kernel.Launch
import proofs.«175067_g13597866459289_cont_week2b_889_3_alg».proof.Proof.Gen.Kernel.Points
import proofs.«175067_g13597866459289_cont_week2b_889_3_alg».proof.Proof.Gen.Kernel.Frame
import proofs.«175067_g13597866459289_cont_week2b_889_3_alg».proof.Proof.Gen.KernelIdeal
import proofs.«175067_g13597866459289_cont_week2b_889_3_alg».proof.Proof.Gen.KernelIdeal.Skeleton
import proofs.«175067_g13597866459289_cont_week2b_889_3_alg».proof.Proof.Gen.KernelIdeal.Launch
import proofs.«175067_g13597866459289_cont_week2b_889_3_alg».proof.Proof.Gen.KernelIdeal.Points
import proofs.«175067_g13597866459289_cont_week2b_889_3_alg».proof.Proof.Gen.KernelIdeal.Frame
import proofs.«175067_g13597866459289_cont_week2b_889_3_alg».proof.Proof.Gen.ReferenceIdeal
import proofs.«175067_g13597866459289_cont_week2b_889_3_alg».proof.Proof.Gen.Pre_finite_inputs
import proofs.«175067_g13597866459289_cont_week2b_889_3_alg».proof.Proof.Gen.KernelIdeal.Value
import proofs.«175067_g13597866459289_cont_week2b_889_3_alg».proof.Proof.Gen.ReferenceIdeal.Run
import proofs.«175067_g13597866459289_cont_week2b_889_3_alg».proof.Proof.Gen.ReferenceIdeal.Read
import proofs.«175067_g13597866459289_cont_week2b_889_3_alg».proof.Proof.KernelValue
import proofs.«175067_g13597866459289_cont_week2b_889_3_alg».proof.Proof.RefAffine
import Idealize.ShloMosaic.Adequacy
import Idealize.ShloMosaic.Init

noncomputable section

namespace Cert.Proof

open Idealize.ShloMosaic Idealize.SL.Sem

/-- The printed kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments alone: its run, with the result's value forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories that agree on `x`, `w` and `b`, the kernel's output array and the reference's result are both
    `x · wᵀ + b`: the kernel's by its tiles (`Cert.Linear.run`), the reference's operation by operation
    (`Cert.Linear.reference_eq`). -/
theorem algebraic : Cert.algebraic_KernelIdeal_ReferenceIdeal := by
  intro m ρ m' ρ' _ hagree
  refine ⟨_, Cert.Linear.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v4_eq _ _ _).trans (Cert.Linear.reference_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
